-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg10 : FVec F S4096 .f32) (main_v33 : IVec S_ 1) : IVec S_ 1 :=
  let main_v34 : FVec F S4096 .f32 := Host.absf main_arg10
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg6 : FVec F S1 .f32) (main_arg8 : FVec F S1 .f32) (main_arg9 : FVec F S1 .f32) (main_arg10 : FVec F S4096 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg10 main_v33

def fn {F : FTy → Type} [FloatOps F] (main_arg0 : FVec F S4x2048x4096 .f32) (main_arg1 : IVec S4096x1024 32) (main_arg2 : FVec F S1 .f32) (main_arg3 : FVec F S1 .f32) (main_arg4 : IVec S1024 32) (main_arg5 : FVec F S1 .f32) (main_arg6 : FVec F S1 .f32) (main_arg7 : IVec S1024x4096 32) (main_arg8 : FVec F S1 .f32) (main_arg9 : FVec F S1 .f32) (main_arg10 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg8 main_arg9 main_arg10 main_v13 main_v16
-- ==== Kernel.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S1x1 : Shape := ⟨2, ![1, 1]⟩
abbrev S1x1024 : Shape := ⟨2, ![1, 1024]⟩
abbrev S1x4096 : Shape := ⟨2, ![1, 4096]⟩
abbrev S8192x4096 : Shape := ⟨2, ![8192, 4096]⟩
abbrev S256x4096 : Shape := ⟨2, ![256, 4096]⟩
abbrev S256x1024 : Shape := ⟨2, ![256, 1024]⟩

abbrev nBuf : Space → Nat
  | .hbm => 41
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .i32⟩
  | .hbm, ⟨2, _⟩ => ⟨S1, .f32⟩
  | .hbm, ⟨3, _⟩ => ⟨S1, .f32⟩
  | .hbm, ⟨4, _⟩ => ⟨S1024, .i32⟩
  | .hbm, ⟨5, _⟩ => ⟨S1, .f32⟩
  | .hbm, ⟨6, _⟩ => ⟨S1, .f32⟩
  | .hbm, ⟨7, _⟩ => ⟨S1024x4096, .i32⟩
  | .hbm, ⟨8, _⟩ => ⟨S1, .f32⟩
  | .hbm, ⟨9, _⟩ => ⟨S1, .f32⟩
  | .hbm, ⟨10, _⟩ => ⟨S4096, .f32⟩
  | .hbm, ⟨11, _⟩ => ⟨S4096x1024, .f32⟩
  | .hbm, ⟨12, _⟩ => ⟨S1x1, .f32⟩
  | .hbm, ⟨13, _⟩ => ⟨S4096x1024, .f32⟩
  | .hbm, ⟨14, _⟩ => ⟨S4096x1024, .f32⟩
  | .hbm, ⟨15, _⟩ => ⟨S1x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024x4096, .f32⟩
  | .hbm, ⟨24, _⟩ => ⟨S1x1, .f32⟩
  | .hbm, ⟨25, _⟩ => ⟨S1024x4096, .f32⟩
  | .hbm, ⟨26, _⟩ => ⟨S1024x4096, .f32⟩
  | .hbm, ⟨27, _⟩ => ⟨S1x1, .f32⟩
  | .hbm, ⟨28, _⟩ => ⟨S1024x4096, .f32⟩
  | .hbm, ⟨29, _⟩ => ⟨S1024x4096, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1024x4096, .f32⟩
  | .hbm, ⟨36, _⟩ => ⟨S1024x4096, .bf16⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S1024x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S1024_0 : S1.BroadcastsInDim S1024 (![0] : Fin 1 → Fin S1024.rank)
  bcast_S1x1_S1024x4096_0_1 : S1x1.BroadcastsInDim S1024x4096 (![0, 1] : Fin 2 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bitsLt_bf16_f32 : FTy.bits .bf16 < FTy.bits .f32
  transposes_S4096x1024_S1024x4096_1_0 : S4096x1024.Transposes [1, 0] S1024x4096
  shapeCasts_S4096_S1x4096 : S4096.ShapeCasts S1x4096
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v27) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S1x1 : Shape := ⟨2, ![1, 1]⟩
abbrev S8192x4096 : Shape := ⟨2, ![8192, 4096]⟩
abbrev S8192x1024 : Shape := ⟨2, ![8192, 1024]⟩
abbrev S1x1024 : Shape := ⟨2, ![1, 1024]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .i32⟩
  | .hbm, ⟨2, _⟩ => ⟨S1, .f32⟩
  | .hbm, ⟨3, _⟩ => ⟨S1, .f32⟩
  | .hbm, ⟨4, _⟩ => ⟨S1024, .i32⟩
  | .hbm, ⟨5, _⟩ => ⟨S1, .f32⟩
  | .hbm, ⟨6, _⟩ => ⟨S1, .f32⟩
  | .hbm, ⟨7, _⟩ => ⟨S1024x4096, .i32⟩
  | .hbm, ⟨8, _⟩ => ⟨S1, .f32⟩
  | .hbm, ⟨9, _⟩ => ⟨S1, .f32⟩
  | .hbm, ⟨10, _⟩ => ⟨S4096, .f32⟩
  | .hbm, ⟨11, _⟩ => ⟨S4096x1024, .f32⟩
  | .hbm, ⟨12, _⟩ => ⟨S1x1, .f32⟩
  | .hbm, ⟨13, _⟩ => ⟨S4096x1024, .f32⟩
  | .hbm, ⟨14, _⟩ => ⟨S4096x1024, .f32⟩
  | .hbm, ⟨15, _⟩ => ⟨S1x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024x4096, .f32⟩
  | .hbm, ⟨24, _⟩ => ⟨S1x1, .f32⟩
  | .hbm, ⟨25, _⟩ => ⟨S1024x4096, .f32⟩
  | .hbm, ⟨26, _⟩ => ⟨S1024x4096, .f32⟩
  | .hbm, ⟨27, _⟩ => ⟨S1x1, .f32⟩
  | .hbm, ⟨28, _⟩ => ⟨S1024x4096, .f32⟩
  | .hbm, ⟨29, _⟩ => ⟨S1024x4096, .f32⟩
  | .hbm, ⟨30, _⟩ => ⟨S8192x4096, .f32⟩
  | .hbm, ⟨31, _⟩ => ⟨S4096x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S1024_0 : S1.BroadcastsInDim S1024 (![0] : Fin 1 → Fin S1024.rank)
  bcast_S1x1_S1024x4096_0_1 : S1x1.BroadcastsInDim S1024x4096 (![0, 1] : Fin 2 → Fin S1024x4096.rank)
  shapeCasts_S4x2048x4096_S8192x4096 : S4x2048x4096.ShapeCasts S8192x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KernelBlock.lean ====
/-
  What the kernel body computes on one block of 256 rows, read at one entry (p, o) of the 256 × 4096 result block.

  The body loads a block x of 256 rows of the flattened input, the whole first table w₁ (4096 × 1024, the scale
  already folded in), the whole second table w₂ (1024 × 4096) and the row b (1 × 4096). It multiplies x by w₁ on the
  matrix unit into zeros, multiplies the result by w₂ into zeros, and adds b to every row. The changes of float
  format in between are the identity on the extended reals, and each matrix product into zeros is a plain sum of
  products, so entry (p, o) is

      Σ_r (Σ_k x(p,k) · w₁(k,r)) · w₂(r,o) + b(0,o).
-/
import proofs.«181085_j31550829757013_2_alg».proof.Proof.Gen.KernelIdeal.Skeleton
import proofs.«181085_j31550829757013_2_alg».proof.Proof.LibPlainMatmul
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx

/-- Entry (p, o) of the body's result on loaded blocks x, w₁, w₂, b. -/
theorem payload_apply (x : Vec Ideal S256x4096 .f32) (w1 : Vec Ideal S4096x1024 .bf16) (w2 : Vec Ideal S1024x4096 .bf16)
    (b : Vec Ideal S1x4096 .f32) (p : Fin 256) (o : Fin 4096) :
    k0_pay1 (F := Ideal) x w1 w2 b (ix2 p o)
      = (∑ r : Fin 1024, (∑ k : Fin 4096, x (ix2 p k) * w1 (ix2 k r)) * w2 (ix2 r o)) + b (ix2 (0 : Fin 1) o) := by
  unfold k0_pay1
  refine congrArg₂ (· + ·) ?_ ?_
  · refine (Cert.PlainMatmul.matmul_zero_apply 256 1024 4096 none _ _ p o).trans ?_
    refine Finset.sum_congr rfl fun r _ => ?_
    refine congrArg₂ (· * ·) ?_ ?_
    · refine (Cert.PlainMatmul.matmul_zero_apply 256 4096 1024 none _ _ p r).trans ?_
      refine Finset.sum_congr rfl fun k _ => ?_
      refine congrArg₂ (· * ·) ?_ ?_
      · exact congrFun (shapeCast_self x shapeCasts_S256x4096_S256x4096) (ix2 p k)
      · exact congrFun (shapeCast_self w1 shapeCasts_S4096x1024_S4096x1024) (ix2 k r)
    · exact congrFun (shapeCast_self w2 shapeCasts_S1024x4096_S1024x4096) (ix2 r o)
  · refine (broadcastTo_1b_ab_apply _ broadcasts_S1x4096_S256x4096 p o).trans ?_
    exact congrFun (shapeCast_self b shapeCasts_S1x4096_S1x4096) (ix2 (0 : Fin 1) o)

end Cert.KernelIdeal.Block

end
-- ==== Proof.KernelArray.lean ====
/-
  From blocks to the whole array: what the region leaves in its 8192 × 4096 result.

  The grid has 32 points. Point t is handed rows 256·t … 256·t + 255 of the flattened input and the three other arrays
  whole, and writes back rows 256·t … 256·t + 255 of the result. So the entry (n, o) of the result is written by the
  one point t = n / 256, from row n of the input, and it is

      Σ_r (Σ_k A(n,k) · W₁(k,r)) · W₂(r,o) + B(0,o)

  of the four arrays A, W₁, W₂, B the region was launched on: every block written back is a block of this one
  function, and the 32 blocks cover all rows.
-/
import proofs.«181085_j31550829757013_2_alg».proof.Proof.Gen.KernelIdeal.Frame
import proofs.«181085_j31550829757013_2_alg».proof.Proof.KernelBlock
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)

/-- Entry (n, o) of the two chained products plus the row, of four whole arrays. -/
def entry (A : S8192x4096.Idx → EReal) (W1 : S4096x1024.Idx → EReal) (W2 : S1024x4096.Idx → EReal) (B : S1x4096.Idx → EReal)
    (n : Fin 8192) (o : Fin 4096) : EReal :=
  (∑ r : Fin 1024, (∑ k : Fin 4096, A (ix2 n k) * W1 (ix2 k r)) * W2 (ix2 r o)) + B (ix2 (0 : Fin 1) o)

/-- The whole 8192 × 4096 result as one function of the four arrays. -/
def whole (A : S8192x4096.Idx → EReal) (W1 : S4096x1024.Idx → EReal) (W2 : S1024x4096.Idx → EReal) (B : S1x4096.Idx → EReal) :
    S8192x4096.Idx → EReal :=
  fun i => entry A W1 W2 B ⟨(i 0).val, (i 0).isLt⟩ ⟨(i 1).val, (i 1).isLt⟩

theorem whole_apply (A : S8192x4096.Idx → EReal) (W1 : S4096x1024.Idx → EReal) (W2 : S1024x4096.Idx → EReal) (B : S1x4096.Idx → EReal)
    (n : Fin 8192) (o : Fin 4096) : whole A W1 W2 B (ix2 n o) = entry A W1 W2 B n o := rfl

variable (m : (ℓ : Loc nD τ sig) → Buf (Elt Ideal) ℓ)

theorem offsets_zero : (![0, 0] : Fin 2 → Nat) = fun _ => 0 := funext fun a => by fin_cases a <;> rfl

/-- Where each window's block sits at point t: the input rows move with the output rows, everything else is whole. -/
theorem block_places : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every one of the 32 row blocks is some point's. -/
theorem block_onto : ∀ q : Fin 32, ∃ t : Fin cfg0.N, win0_4.index t (0 : Fin 2) = q.val ∧ win0_4.index t (1 : Fin 2) = 0 :=
  (by decide +kernel : ∀ q : Fin 32, ∃ t : Fin grid0.N, win0_4.index t (0 : Fin 2) = q.val ∧ win0_4.index t (1 : Fin 2) = 0)

/-- What point t writes back is block t of the one whole-array function. -/
theorem flushed_eq (c : Dev nD) (t : Fin cfg0.N) :
    (dats m 0 c).flushed 4 t = ((cfg0.win 4).blk t).view.read (Elt Ideal)
      (whole (V m c main_v27) (V m c main_v23) (V m c main_v25) (V m c main_v26)) := by
  show (cfg0.win 4).cut (grid0.coords t) ((dats m 0 c).after 4 t) = _
  rw [after0_4]
  unfold out0_4
  rw [View.canon_unit_zero offsets_zero]
  simp only [View.ld_unit_zero (S := S256x4096) offsets_zero, View.ld_unit_zero (S := S4096x1024) offsets_zero,
    View.ld_unit_zero (S := S1024x4096) offsets_zero, View.ld_unit_zero (S := S1x4096) offsets_zero]
  obtain ⟨e00, e01, e10, e11, e20, e21, e30, e31, e41, -⟩ := block_places t
  refine funext fun (j : S256x4096.Idx) => ?_
  obtain ⟨p, o, rfl⟩ : ∃ (p : Fin 256) (o : Fin 4096), j = ix2 p o := ⟨j 0, j 1, eq_ix2 j⟩
  refine (Block.payload_apply _ _ _ _ p o).trans ?_
  show _ = whole (V m c main_v27) (V m c main_v23) (V m c main_v25) (V m c main_v26) (((cfg0.win 4).blk t).view.emb (ix2 p o))
  unfold whole entry
  refine congrArg₂ (· + ·) (Finset.sum_congr rfl fun r _ => congrArg₂ (· * ·)
    (Finset.sum_congr rfl fun k _ => congrArg₂ (· * ·) ?_ ?_) ?_) ?_
  · show V m c main_v27 (((cfg0.win 0).blk t).view.emb (ix2 p k)) = _
    refine congrArg (fun i : S8192x4096.Idx => (V m c main_v27 : S8192x4096.Idx → EReal) i) (funext fun a => Fin.ext ?_)
    match a with
    | ⟨0, _⟩ => show win0_0.index t (0 : Fin 2) * 256 + 1 * p.val = win0_4.index t (0 : Fin 2) * 256 + 1 * p.val; rw [e00]
    | ⟨1, _⟩ => show win0_0.index t (1 : Fin 2) * 4096 + 1 * k.val = k.val; omega
  · show V m c main_v23 (((cfg0.win 1).blk t).view.emb (ix2 k r)) = _
    refine congrArg (fun i : S4096x1024.Idx => (V m c main_v23 : S4096x1024.Idx → EReal) i) (funext fun a => Fin.ext ?_)
    match a with
    | ⟨0, _⟩ => show win0_1.index t (0 : Fin 2) * 4096 + 1 * k.val = k.val; omega
    | ⟨1, _⟩ => show win0_1.index t (1 : Fin 2) * 1024 + 1 * r.val = r.val; omega
  · show V m c main_v25 (((cfg0.win 2).blk t).view.emb (ix2 r o)) = _
    refine congrArg (fun i : S1024x4096.Idx => (V m c main_v25 : S1024x4096.Idx → EReal) i) (funext fun a => Fin.ext ?_)
    match a with
    | ⟨0, _⟩ => show win0_2.index t (0 : Fin 2) * 1024 + 1 * r.val = r.val; omega
    | ⟨1, _⟩ => show win0_2.index t (1 : Fin 2) * 4096 + 1 * o.val = win0_4.index t (1 : Fin 2) * 4096 + 1 * o.val; omega
  · show V m c main_v26 (((cfg0.win 3).blk t).view.emb (ix2 (0 : Fin 1) o)) = _
    refine congrArg (fun i : S1x4096.Idx => (V m c main_v26 : S1x4096.Idx → EReal) i) (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 4096 + 1 * o.val = win0_4.index t (1 : Fin 2) * 4096 + 1 * o.val; omega

/-- An index of the result is in point t's block iff its row is among the block's 256 rows (the columns are whole). -/
theorem mem_blk (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v28).slice (win0_4.rect t)).set ↔ _
  rw [View.set_slice_whole, Rect.mem_set_unit]
  exact Iff.rfl

/-- Row n is written by point n / 256: the 32 blocks cover the result. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, q0, q1⟩ := block_onto ⟨(i 0).val / 256, by omega⟩
  have q0' : win0_4.index t (0 : Fin 2) = (i 0).val / 256 := q0
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The array the region leaves is the whole-array function of the four arrays it was launched on. -/
theorem final (c : Dev nD) : (dats m 0 c).arrAt 4 cfg0.N
    = whole (V m c main_v27) (V m c main_v23) (V m c main_v25) (V m c main_v26) :=
  (dats m 0 c).arrAt_eq_of_cover 4 _ (fun t _ => flushed_eq m c t) cover

end Cert.KernelIdeal.Whole

end
-- ==== Proof.KernelPrefix.lean ====
/-
  The four arrays the kernel's region is launched on, as functions of the program's arguments.

  Before the region the program dequantises the three integer tables, folds the diagonal scale into the transposed
  first table, transposes the second, lays the bias out as one row and flattens x. Each of these arrays is, operation
  for operation, built from arrays the reference also computes:
    the flattened x                 is the reference's flattened x,
    the second table (transposed)   is the reference's transposed dequantised U,
    the first table                 is the reference's transposed dequantised Vh times the dequantised S laid out
                                    as a row and repeated down the 4096 rows,
    the bias row                    is the bias reshaped to one row.
  (The two changes of float format are the identity on the extended reals.)
-/
import proofs.«181085_j31550829757013_2_alg».proof.Proof.Gen.KernelIdeal.Frame
import proofs.«181085_j31550829757013_2_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The flattened input the region finds is the reference's. -/
theorem found_x : (V m c main_v27 : S8192x4096.Idx → EReal)
    = Cert.ReferenceIdeal.Read.val_main_v19 (F := Ideal) (m ((c : Thread nD τ).loc main_arg0)) := by
  show StableHlo.after hostOps0 (fun b => m (c, b)) (Proc.devRef .tc main_v27) = _
  after_results
  rfl

set_option maxHeartbeats 2000000 in
/-- The second table the region finds is the reference's transposed dequantised U. -/
theorem found_w2 : (V m c main_v25 : S1024x4096.Idx → EReal)
    = Cert.ReferenceIdeal.Read.val_main_v25 (F := Ideal) (m ((c : Thread nD τ).loc main_arg1))
        (m ((c : Thread nD τ).loc main_arg2)) (m ((c : Thread nD τ).loc main_arg3)) := by
  show StableHlo.after hostOps0 (fun b => m (c, b)) (Proc.devRef .tc main_v25) = _
  after_results_simp
  rfl

set_option maxHeartbeats 2000000 in
/-- The first table the region finds is the reference's transposed dequantised Vh, each column r scaled by the
    dequantised S at r (S laid out as one row and repeated down the rows). -/
theorem found_w1 : (V m c main_v23 : S4096x1024.Idx → EReal)
    = fun i => Cert.ReferenceIdeal.Read.val_main_v20 (F := Ideal) (m ((c : Thread nD τ).loc main_arg7))
        (m ((c : Thread nD τ).loc main_arg8)) (m ((c : Thread nD τ).loc main_arg9)) i
      * broadcastInDim S4096x1024 ![0, 1] bcast_S1x1024_S4096x1024_0_1
        (Cert.ReferenceIdeal.Read.val_main_v22 (F := Ideal) (m ((c : Thread nD τ).loc main_arg4))
          (m ((c : Thread nD τ).loc main_arg5)) (m ((c : Thread nD τ).loc main_arg6))) i := by
  show StableHlo.after hostOps0 (fun b => m (c, b)) (Proc.devRef .tc main_v23) = _
  after_results_simp
  rfl

/-- The bias row the region finds is the bias reshaped to one row. -/
theorem found_b : (V m c main_v26 : S1x4096.Idx → EReal)
    = shapeCast S1x4096 (m ((c : Thread nD τ).loc main_arg10)) shapeCasts_S4096_S1x4096 := by
  show StableHlo.after hostOps0 (fun b => m (c, b)) (Proc.devRef .tc main_v26) = _
  after_results
  rfl

end Cert.KernelIdeal.Prefix

end
-- ==== Proof.LibLowRankScale.lean ====
/-
  The algebra that joins two spellings of a low-rank linear layer on the extended reals.

  A row x of K numbers is sent through a rank-R factorisation: first to R numbers h_r, then to N numbers y_o.
  With a table V (K × R), a diagonal scale S (R numbers), a table U (R × N) and a row b of N numbers,

    one spelling scales AFTER the first product:   y_o = Σ_r ((Σ_k x_k · V_kr) · S_r) · U_ro + b_o,
    the other folds the scale into the table:       y_o = Σ_r (Σ_k x_k · (V_kr · S_r)) · U_ro + b_o.

  On the real numbers the two agree because a common factor moves out of a sum:
  Σ_k x_k · (V_kr · S_r) = (Σ_k x_k · V_kr) · S_r. On the extended reals multiplication does not distribute over
  addition at the infinities (∞ · 0 and ∞ − ∞ are the cases that break it), so the law is proved for entries that
  are real numbers, by moving the whole computation into ℝ and back.
-/
import Idealize.ShloMosaic.PureOps.Ideal

noncomputable section

open scoped BigOperators

namespace LowRank

/-- The coercion of a finite sum of reals into the extended reals is the sum of the coercions. -/
theorem coe_sum {ι : Type} (s : Finset ι) (f : ι → ℝ) :
    ((Finset.sum s f : ℝ) : EReal) = Finset.sum s fun k => (f k : EReal) := by
  classical
  refine Finset.induction_on s ?_ ?_
  · simp
  · intro a s ha ih
    rw [Finset.sum_insert ha, Finset.sum_insert ha, EReal.coe_add, ih]

/-- A common real factor moves out of a sum of products of reals: Σ_k a_k · (b_k · c) = (Σ_k a_k · b_k) · c,
    read in the extended reals. -/
theorem sum_mul_scale_real {ι : Type} (s : Finset ι) (a b : ι → ℝ) (c : ℝ) :
    (Finset.sum s fun k => (a k : EReal) * ((b k : EReal) * (c : EReal)))
      = (Finset.sum s fun k => (a k : EReal) * (b k : EReal)) * (c : EReal) := by
  simp only [← EReal.coe_mul, ← coe_sum]
  refine congrArg (fun r : ℝ => (r : EReal)) ?_
  rw [Finset.sum_mul]
  exact Finset.sum_congr rfl fun k _ => by ring

/-- The same for extended reals that ARE real numbers. -/
theorem sum_mul_scale {K : Nat} (x w : Fin K → EReal) (c : EReal)
    (hx : ∀ k, ∃ r : ℝ, x k = (r : EReal)) (hw : ∀ k, ∃ r : ℝ, w k = (r : EReal)) (hc : ∃ r : ℝ, c = (r : EReal)) :
    (∑ k : Fin K, x k * (w k * c)) = (∑ k : Fin K, x k * w k) * c := by
  choose a ha using hx
  choose b hb using hw
  obtain ⟨c', rfl⟩ := hc
  simp only [ha, hb]
  exact sum_mul_scale_real Finset.univ a b c'

/-- A dequantised weight (n − z) · s, with n an integer and the zero point z and the scale s real numbers, is a
    real number. -/
theorem dequant_real (n : ℤ) (z s : EReal) (hz : ∃ r : ℝ, z = (r : EReal)) (hs : ∃ r : ℝ, s = (r : EReal)) :
    ∃ r : ℝ, (((n : ℝ) : EReal) - z) * s = (r : EReal) := by
  obtain ⟨z', rfl⟩ := hz
  obtain ⟨s', rfl⟩ := hs
  exact ⟨((n : ℝ) - z') * s', by rw [EReal.coe_mul, EReal.coe_sub]⟩

variable {M K R N : Nat}

/-- Entry (n, o) of the layer with the scale applied AFTER the first product. -/
def scaledAfter (X : Fin M → Fin K → EReal) (V : Fin K → Fin R → EReal) (S : Fin R → EReal) (U : Fin R → Fin N → EReal)
    (b : Fin N → EReal) (n : Fin M) (o : Fin N) : EReal :=
  (∑ r : Fin R, ((∑ k : Fin K, X n k * V k r) * S r) * U r o) + b o

/-- Entry (n, o) of the layer with the scale folded INTO the first table. -/
def scaledInto (X : Fin M → Fin K → EReal) (V : Fin K → Fin R → EReal) (S : Fin R → EReal) (U : Fin R → Fin N → EReal)
    (b : Fin N → EReal) (n : Fin M) (o : Fin N) : EReal :=
  (∑ r : Fin R, (∑ k : Fin K, X n k * (V k r * S r)) * U r o) + b o

/-- The two spellings agree when the row, the first table and the scale are real numbers (the second table and the
    added row may be anything: both spellings treat them alike). -/
theorem scaledInto_eq_scaledAfter (X : Fin M → Fin K → EReal) (V : Fin K → Fin R → EReal) (S : Fin R → EReal)
    (U : Fin R → Fin N → EReal) (b : Fin N → EReal) (n : Fin M) (o : Fin N)
    (hX : ∀ k, ∃ r : ℝ, X n k = (r : EReal)) (hV : ∀ k r, ∃ v : ℝ, V k r = (v : EReal))
    (hS : ∀ r, ∃ v : ℝ, S r = (v : EReal)) :
    scaledInto X V S U b n o = scaledAfter X V S U b n o := by
  unfold scaledInto scaledAfter
  refine congrArg (fun z => z + b o) ?_
  refine Finset.sum_congr rfl fun r _ => ?_
  rw [sum_mul_scale (fun k => X n k) (fun k => V k r) (S r) hX (fun k => hV k r) (hS r)]

end LowRank

end
-- ==== Proof.RefEntry.lean ====
/-
  The reference's result, before its last reshape, read at one entry (n, o) of the 8192 × 4096 array.

  The reference flattens x to X (8192 × 4096), dequantises three integer tables, and computes
  ((X · Vhᵀ) · diag S) · Uᵀ + bias. Named by the operations that produce them:
    X    = the reshape of x                         (rows n, columns k),
    VhT  = the transpose of the dequantised Vh      (rows k, columns r),
    Srow = the dequantised S laid out as one row    (columns r),
    UT   = the transpose of the dequantised U       (rows r, columns o).
  Entry (n, o) is Σ_r ((Σ_k X(n,k) · VhT(k,r)) · Srow(0,r)) · UT(r,o) + bias(o): the layer with the scale applied
  AFTER the first product.
-/
import proofs.«181085_j31550829757013_2_alg».proof.Proof.Gen.ReferenceIdeal.Read
import proofs.«181085_j31550829757013_2_alg».proof.Proof.LibLowRankScale

noncomputable section

namespace Cert.ReferenceIdeal.Entry

open Cert.ReferenceIdeal Cert.ReferenceIdeal.Read Idealize.ShloMosaic Idealize.ShloMosaic.ValueIdx

variable (x0 : (⟨S4x2048x4096, .f32⟩ : BufTy).Contents (Elt Ideal)) (x1 : (⟨S4096x1024, .i32⟩ : BufTy).Contents (Elt Ideal))
    (x2 x3 : (⟨S1, .f32⟩ : BufTy).Contents (Elt Ideal)) (x4 : (⟨S1024, .i32⟩ : BufTy).Contents (Elt Ideal))
    (x5 x6 : (⟨S1, .f32⟩ : BufTy).Contents (Elt Ideal)) (x7 : (⟨S1024x4096, .i32⟩ : BufTy).Contents (Elt Ideal))
    (x8 x9 : (⟨S1, .f32⟩ : BufTy).Contents (Elt Ideal)) (x10 : (⟨S4096, .f32⟩ : BufTy).Contents (Elt Ideal))

/-- The flattened input, by row and column. -/
def X : Fin 8192 → Fin 4096 → EReal := fun n k => val_main_v19 (F := Ideal) x0 (ix2 n k)
/-- The transposed, dequantised first table, by row and column. -/
def VhT : Fin 4096 → Fin 1024 → EReal := fun k r => val_main_v20 (F := Ideal) x7 x8 x9 (ix2 k r)
/-- The dequantised diagonal, as the one row it is laid out in. -/
def Srow : Fin 1024 → EReal := fun r => val_main_v22 (F := Ideal) x4 x5 x6 (ix2 (0 : Fin 1) r)
/-- The transposed, dequantised second table, by row and column. -/
def UT : Fin 1024 → Fin 4096 → EReal := fun r o => val_main_v25 (F := Ideal) x1 x2 x3 (ix2 r o)
/-- The added row. -/
def bias : Fin 4096 → EReal := fun o => x10 (ix1 o)

theorem lidx26 (n : Fin 8192) (o : Fin 4096) (r : Fin 1024) : lidx_main_v26 (ix2 n o) r = ix2 n r :=
  funext fun a => Fin.ext (by match a with | ⟨0, _⟩ => rfl | ⟨1, _⟩ => rfl)
theorem ridx26 (n : Fin 8192) (o : Fin 4096) (r : Fin 1024) : ridx_main_v26 (ix2 n o) r = ix2 r o :=
  funext fun a => Fin.ext (by match a with | ⟨0, _⟩ => rfl | ⟨1, _⟩ => rfl)
theorem lidx21 (n : Fin 8192) (r : Fin 1024) (k : Fin 4096) : lidx_main_v21 (ix2 n r) k = ix2 n k :=
  funext fun a => Fin.ext (by match a with | ⟨0, _⟩ => rfl | ⟨1, _⟩ => rfl)
theorem ridx21 (n : Fin 8192) (r : Fin 1024) (k : Fin 4096) : ridx_main_v21 (ix2 n r) k = ix2 k r :=
  funext fun a => Fin.ext (by match a with | ⟨0, _⟩ => rfl | ⟨1, _⟩ => rfl)
theorem idx23 (n : Fin 8192) (r : Fin 1024) : idx_main_v23 (ix2 n r) = ix2 (0 : Fin 1) r :=
  funext fun a => Fin.ext (by match a with | ⟨0, _⟩ => rfl | ⟨1, _⟩ => rfl)
theorem idx2728 (n : Fin 8192) (o : Fin 4096) : idx_main_v27 (idx_main_v28 (ix2 n o)) = ix1 o :=
  funext fun a => Fin.ext (by match a with | ⟨0, _⟩ => rfl)

/-- Entry (n, o) of the reference's 8192 × 4096 result is the layer with the scale applied after the first product. -/
theorem result_apply (n : Fin 8192) (o : Fin 4096) :
    val_main_v29 (F := Ideal) x0 x1 x2 x3 x4 x5 x6 x7 x8 x9 x10 (ix2 n o)
      = LowRank.scaledAfter (X x0) (VhT x7 x8 x9) (Srow x4 x5 x6) (UT x1 x2 x3) (bias x10) n o := by
  rw [val_main_v29_apply, val_main_v26_apply, val_main_v28_apply, val_main_v27_apply, idx2728]
  unfold LowRank.scaledAfter X VhT Srow UT bias
  simp only [lidx26, ridx26, val_main_v24_apply, val_main_v21_apply, val_main_v23_apply, lidx21, ridx21, idx23,
    Ideal.mulf_def, Ideal.addf_def]

end Cert.ReferenceIdeal.Entry

end
-- ==== Proof.RefReals.lean ====
/-
  When the float inputs hold real numbers, so do the three arrays the law needs real: the flattened x, the
  transposed dequantised Vh, and the dequantised S.

  The flattened x only re-lays entries of x. An entry of the dequantised Vh is (n − z) · s with n an integer read
  from the integer table and z, s the zero point and the scale, both real; the transpose only moves it. The
  dequantised S is the same with its own zero point and scale, laid out as a row.
-/
import proofs.«181085_j31550829757013_2_alg».proof.Proof.Gen.ReferenceIdeal.Read
import proofs.«181085_j31550829757013_2_alg».proof.Proof.LibLowRankScale
import proofs.«181085_j31550829757013_2_alg».proof.Proof.RefEntry

noncomputable section

namespace Cert.ReferenceIdeal.Entry

open Cert.ReferenceIdeal Cert.ReferenceIdeal.Read Idealize.ShloMosaic Idealize.ShloMosaic.ValueIdx

variable (x0 : (⟨S4x2048x4096, .f32⟩ : BufTy).Contents (Elt Ideal)) (x1 : (⟨S4096x1024, .i32⟩ : BufTy).Contents (Elt Ideal))
    (x2 x3 : (⟨S1, .f32⟩ : BufTy).Contents (Elt Ideal)) (x4 : (⟨S1024, .i32⟩ : BufTy).Contents (Elt Ideal))
    (x5 x6 : (⟨S1, .f32⟩ : BufTy).Contents (Elt Ideal)) (x7 : (⟨S1024x4096, .i32⟩ : BufTy).Contents (Elt Ideal))
    (x8 x9 : (⟨S1, .f32⟩ : BufTy).Contents (Elt Ideal)) (x10 : (⟨S4096, .f32⟩ : BufTy).Contents (Elt Ideal))

/-- The flattened x holds real numbers when x does. -/
theorem X_real (h0 : ∀ i, ∃ r : ℝ, x0 i = (r : EReal)) (n : Fin 8192) (k : Fin 4096) : ∃ r : ℝ, X x0 n k = (r : EReal) := by
  unfold X
  rw [val_main_v19_apply]
  exact h0 _

/-- The transposed dequantised Vh holds real numbers when its scale and zero point are real. -/
theorem VhT_real (h8 : ∀ i, ∃ r : ℝ, x8 i = (r : EReal)) (h9 : ∀ i, ∃ r : ℝ, x9 i = (r : EReal)) (k : Fin 4096) (r : Fin 1024) :
    ∃ v : ℝ, VhT x7 x8 x9 k r = (v : EReal) := by
  unfold VhT
  rw [val_main_v20_apply, val_main_v18_apply, val_main_v15_apply, val_main_v12_apply, val_main_v14_apply, val_main_v13_apply,
    val_main_v17_apply, val_main_v16_apply]
  exact LowRank.dequant_real _ _ _ (h9 _) (h8 _)

/-- The dequantised S holds real numbers when its scale and zero point are real. -/
theorem Srow_real (h5 : ∀ i, ∃ r : ℝ, x5 i = (r : EReal)) (h6 : ∀ i, ∃ r : ℝ, x6 i = (r : EReal)) (r : Fin 1024) :
    ∃ v : ℝ, Srow x4 x5 x6 r = (v : EReal) := by
  unfold Srow
  rw [val_main_v22_apply, val_main_v11_apply, val_main_v9_apply, val_main_v7_apply, val_main_v8_apply, val_main_v10_apply]
  exact LowRank.dequant_real _ _ _ (h6 _) (h5 _)

end Cert.ReferenceIdeal.Entry

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.PreReals.lean ====
/-
  The precondition read: every float input holds real numbers.

  The precondition is the conjunction of eight tests, one per float input a: "every entry of |a| is below plus
  infinity", where |a| is max a (−a). An extended real whose absolute value is below plus infinity is neither
  infinity, so it is a real number. The conjunction is split test by test, each test ("all entries") gives its
  statement at every entry, and the entry statement gives the real number.
-/
import proofs.«181085_j31550829757013_2_alg».proof.Proof.Gen.Pre_finite_inputs
import proofs.«181085_j31550829757013_2_alg».proof.Proof.LibSingletonSoftmax
import Idealize.ShloMosaic.Lib.ReduceAll
import Idealize.ShloMosaic.Lib.Affine
import Idealize.ShloMosaic.Lib.ValueIdx

noncomputable section

namespace Cert.Pre_finite_inputs.Reals

open Idealize.ShloMosaic Idealize.ShloMosaic.ValueIdx Cert.Pre_finite_inputs

/-- The shape with no axes has one index. -/
instance : Subsingleton S_.Idx := ⟨fun a b => funext fun d => d.elim0⟩

/-- One test "every entry of |a| is below plus infinity" that came out true makes every entry of a a real number. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = (r : EReal) :=
  SingletonSoftmax.real_of_abs_lt_top (a i) (Host.reduce_andi_all _ _ hr hu ix0 e i)

variable [Facts]

/-- Under the precondition every float input holds real numbers: x, the three scales, the three zero points and the
    bias, in the order of the program's arguments. -/
theorem of_pre (a0 : FVec Ideal S4x2048x4096 .f32) (a1 : IVec S4096x1024 32) (a2 a3 : FVec Ideal S1 .f32) (a4 : IVec S1024 32)
    (a5 a6 : FVec Ideal S1 .f32) (a7 : IVec S1024x4096 32) (a8 a9 : FVec Ideal S1 .f32) (a10 : FVec Ideal S4096 .f32)
    (h : fn (F := Ideal) a0 a1 a2 a3 a4 a5 a6 a7 a8 a9 a10 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a5 i = (r : EReal)) ∧ (∀ i, ∃ r : ℝ, a6 i = (r : EReal)) ∧ (∀ i, ∃ r : ℝ, a8 i = (r : EReal))
      ∧ (∀ i, ∃ r : ℝ, a9 i = (r : EReal)) ∧ (∀ i, ∃ r : ℝ, a10 i = (r : EReal)) := by
  have h0 := congrFun h ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e6⟩ := IntOp.andi_eq_one.1 h0
  obtain ⟨h0, e5⟩ := IntOp.andi_eq_one.1 h0
  obtain ⟨h0, e3⟩ := IntOp.andi_eq_one.1 h0
  obtain ⟨e0, e2⟩ := IntOp.andi_eq_one.1 h0
  exact ⟨real_of_all a0 _ _ _ e0, real_of_all a2 _ _ _ e2, real_of_all a3 _ _ _ e3, real_of_all a5 _ _ _ e5,
    real_of_all a6 _ _ _ e6, real_of_all a8 _ _ _ e8, real_of_all a9 _ _ _ e9, real_of_all a10 _ _ _ e10⟩

end Cert.Pre_finite_inputs.Reals

end
-- ==== Proof.KernelResult.lean ====
/-
  The kernel program's run, read: its result is the reference's, as one function of the arguments.

  Three steps. (1) The array the region leaves is, entry by entry, the layer with the diagonal scale folded INTO the
  first table, of arrays the reference also computes; under the precondition these hold real numbers, so by the law of
  the two spellings it is the layer with the scale applied AFTER the first product, which is what the reference's
  8192 × 4096 result is. (2) After the region both programs end with the same reshape to 4 × 2048 × 4096. (3) The
  program's run leaves every argument as it was.
-/
import proofs.«181085_j31550829757013_2_alg».proof.Proof.Gen.KernelIdeal.Frame
import proofs.«181085_j31550829757013_2_alg».proof.Proof.Gen.ReferenceIdeal.Read
import proofs.«181085_j31550829757013_2_alg».proof.Proof.Gen.Pre_finite_inputs
import proofs.«181085_j31550829757013_2_alg».proof.Proof.KernelArray
import proofs.«181085_j31550829757013_2_alg».proof.Proof.KernelPrefix
import proofs.«181085_j31550829757013_2_alg».proof.Proof.RefEntry
import proofs.«181085_j31550829757013_2_alg».proof.Proof.RefReals
import proofs.«181085_j31550829757013_2_alg».proof.Proof.PreReals
import proofs.«181085_j31550829757013_2_alg».proof.Proof.LibLowRankScale
import proofs.«181085_j31550829757013_2_alg».proof.Defs
import Idealize.ShloMosaic.Lib.StableHlo.Run

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The reference's 8192 × 4096 result of the kernel program's arguments on core c. -/
abbrev refFlat (c : Dev nD) : Cert.ReferenceIdeal.S8192x4096.Idx → EReal :=
  Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The row S laid out as [1, 1024] and repeated down 4096 rows reads, at (k, r), the row at r. -/
theorem scale_rows_apply (s : S1x1024.Idx → EReal) (k : Fin 4096) (r : Fin 1024) :
    broadcastInDim S4096x1024 ![0, 1] bcast_S1x1024_S4096x1024_0_1 s (ix2 k r) = s (ix2 (0 : Fin 1) r) :=
  broadcastInDim_apply _ bcast_S1x1024_S4096x1024_0_1 s (ix2 k r) (ix2 (0 : Fin 1) r) fun a => by
    match a with
    | ⟨0, _⟩ => show (0 : Fin 1).val = if (1 : Nat) = 1 then 0 else k.val; rw [if_pos rfl]; rfl
    | ⟨1, _⟩ => show r.val = if (1024 : Nat) = 1 then 0 else r.val; rw [if_neg (by decide)]

/-- The bias reshaped to one row reads, at (0, o), the bias at o. -/
theorem bias_row_apply (b : S4096.Idx → EReal) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rewrite [Shape.rowMajor_val_one, Shape.rowMajor_val_two]
    show o.val = (0 : Fin 1).val * 4096 + o.val
    simp)

/-- (1) Under the precondition the array the region leaves is the reference's 8192 × 4096 result. -/
theorem whole_eq_ref [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    Whole.whole (V m c main_v27) (V m c main_v23) (V m c main_v25) (V m c main_v26) = refFlat m c := by
  obtain ⟨h0, -, -, h5, h6, h8, h9, -⟩ := Cert.Pre_finite_inputs.Reals.of_pre _ _ _ _ _ _ _ _ _ _ _ hpre
  funext i
  obtain ⟨n, o, rfl⟩ : ∃ (n : Fin 8192) (o : Fin 4096), i = ix2 n o := ⟨i 0, i 1, eq_ix2 i⟩
  rw [Whole.whole_apply]
  refine Eq.trans ?_ ((LowRank.scaledInto_eq_scaledAfter _ _ _ _ _ n o
    (Cert.ReferenceIdeal.Entry.X_real _ h0 n) (Cert.ReferenceIdeal.Entry.VhT_real _ _ _ h8 h9)
    (Cert.ReferenceIdeal.Entry.Srow_real _ _ _ h5 h6)).trans (Cert.ReferenceIdeal.Entry.result_apply _ _ _ _ _ _ _ _ _ _ _ n o).symm)
  unfold Whole.entry LowRank.scaledInto
  rw [Prefix.found_x, Prefix.found_w1, Prefix.found_w2, Prefix.found_b]
  refine congrArg₂ (· + ·) (Finset.sum_congr rfl fun r _ => congrArg₂ (· * ·)
    (Finset.sum_congr rfl fun k _ => congrArg₂ (· * ·) rfl (congrArg₂ (· * ·) rfl ?_)) rfl) ?_
  · exact scale_rows_apply _ k r
  · exact bias_row_apply _ o

/-- (2) The one host line after the region reshapes the array the region left. -/
theorem tail_eq (c : Dev nD) :
    Pipeline.afterTail₀ cfgs (dats m) 0 (V0 m) [hostOps1] c main_v29
      = shapeCast S4x2048x4096 ((dats m 0 c).arrAt 4 cfg0.N) shapeCasts_S8192x4096_S4x2048x4096 := by
  unfold Pipeline.afterTail₀
  show StableHlo.after hostOps1 _ (Proc.devRef .tc main_v29) = _
  after_results
  have e : Pipeline.withArrays (cfgs 0).spec c (V0 m c) (fun w => (dats m 0 c).arrAt w (cfgs 0).N) (Proc.devRef .tc main_v28)
      = (dats m 0 c).arrAt 4 cfg0.N := Pipeline.withArrays_arr spec0 launch0.win.arr_inj c _ _ 4
  rw [e]
  rfl

/-- The reference's result of the kernel program's arguments on core c. -/
abbrev refResult (c : Dev nD) : Cert.ReferenceIdeal.S4x2048x4096.Idx → EReal :=
  Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- (3) THE RUN: under the precondition every weakly fair execution of the kernel program terminates with its result
    at the reference's result of its arguments, and every argument as it was. -/
theorem run [Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v29) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v29 (Pipeline.mem_restRefs_of main_v29 (by decide) (by decide))).trans
        ((tail_eq m c).trans (by rw [Whole.final, whole_eq_ref m c (hpre c)]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Result

end
-- ==== Proof.lean ====
/-
  The certificate of a compressed linear layer: a Pallas kernel against its jnp reference, on the extended reals.

  Both programs compute y = ((x · Vhᵀ) · diag S) · Uᵀ + bias over x flattened to 8192 rows, with Vh, S, U dequantised
  from integer tables as (n − zero point) · scale. The reference scales the 1024 intermediate numbers of each row by S
  after the first product. The kernel program instead folds S into the transposed first table before its pallas_call,
  and the kernel, on 32 blocks of 256 rows, only chains two matrix products and adds the bias row. On the extended
  reals every change of float format is the identity and a matrix product into zeros is a plain sum of products, so
  the two results differ exactly by where the factor S_r stands:

      Σ_k x_k · (Vh_rk · S_r)   against   (Σ_k x_k · Vh_rk) · S_r.

  These agree when x, the dequantised Vh and the dequantised S hold real numbers, which the precondition (every
  float input finite) gives; at infinite entries multiplication does not distribute over the sum and the law is not
  used there. The modules: the law (LibLowRankScale), the precondition read (PreReals), the reference's result at an entry
  (RefEntry, RefReals), the kernel body at an entry (KernelBlock), the arrays the region is launched on (KernelPrefix),
  the blocks assembled into the whole result (KernelArray), and the kernel program's run read as the reference's
  result (KernelResult). The three frames and the reference's run are the generated modules'.
-/
import proofs.«181085_j31550829757013_2_alg».proof.Defs
import proofs.«181085_j31550829757013_2_alg».proof.Proof.Gen.Kernel
import proofs.«181085_j31550829757013_2_alg».proof.Proof.Gen.Kernel.Skeleton
import proofs.«181085_j31550829757013_2_alg».proof.Proof.Gen.Kernel.Launch
import proofs.«181085_j31550829757013_2_alg».proof.Proof.Gen.Kernel.Points
import proofs.«181085_j31550829757013_2_alg».proof.Proof.Gen.Kernel.Frame
import proofs.«181085_j31550829757013_2_alg».proof.Proof.Gen.KernelIdeal
import proofs.«181085_j31550829757013_2_alg».proof.Proof.Gen.KernelIdeal.Skeleton
import proofs.«181085_j31550829757013_2_alg».proof.Proof.Gen.KernelIdeal.Launch
import proofs.«181085_j31550829757013_2_alg».proof.Proof.Gen.KernelIdeal.Points
import proofs.«181085_j31550829757013_2_alg».proof.Proof.Gen.KernelIdeal.Frame
import proofs.«181085_j31550829757013_2_alg».proof.Proof.Gen.ReferenceIdeal
import proofs.«181085_j31550829757013_2_alg».proof.Proof.Gen.Pre_finite_inputs
import proofs.«181085_j31550829757013_2_alg».proof.Proof.Gen.ReferenceIdeal.Run
import proofs.«181085_j31550829757013_2_alg».proof.Proof.Gen.ReferenceIdeal.Read
import proofs.«181085_j31550829757013_2_alg».proof.Proof.KernelResult
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel program is the kernel program's own text. -/
theorem preserves : Cert.preserves_Kernel_KernelIdeal := trivial

/-- From memories agreeing on the arguments both idealized programs end at the reference's result of those arguments:
    the kernel program by its run read back, the reference by its own run with the arguments' agreement rewritten. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact Cert.ReferenceIdeal.Read.val_main_v30_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
